-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S2x3200000 : Shape := ⟨2, ![2, 3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : FVec F S128x32 .f32) (main_arg2 : FVec F S32 .f32) (main_arg3 : FVec F S32x16 .f32) (main_arg4 : FVec F S16 .f32) (main_arg5 : IVec S2x3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_v13 main_v16
-- ==== Kernel.lean ====
abbrev S100000x128 : Shape := ⟨2, ![100000, 128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S4000x128 : Shape := ⟨2, ![4000, 128]⟩
abbrev S4000x32 : Shape := ⟨2, ![4000, 32]⟩
abbrev S3300000x32 : Shape := ⟨2, ![3300000, 32]⟩
abbrev S1x32 : Shape := ⟨2, ![1, 32]⟩
abbrev S100000x16 : Shape := ⟨2, ![100000, 16]⟩
abbrev S4000x16 : Shape := ⟨2, ![4000, 16]⟩
abbrev S3300000x16 : Shape := ⟨2, ![3300000, 16]⟩
abbrev S1x16 : Shape := ⟨2, ![1, 16]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x16, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x16, .f32⟩
  | .hbm, ⟨74, _⟩ => ⟨S3300000x1, .f32⟩
  | .hbm, ⟨75, _⟩ => ⟨S3300000x16, .f32⟩
  | .hbm, ⟨76, _⟩ => ⟨S3300000x16, .f32⟩
  | .hbm, ⟨77, _⟩ => ⟨S_, .f32⟩
  | .hbm, ⟨78, _⟩ => ⟨S100000x16, .f32⟩
  | .hbm, ⟨79, _⟩ => ⟨S3300000x1, .i32⟩
  | .hbm, ⟨80, _⟩ => ⟨S100000x16, .f32⟩
  | .hbm, ⟨81, _⟩ => ⟨S1x16, .f32⟩
  | .hbm, ⟨82, _⟩ => ⟨S100000x16, .f32⟩
  | .local _ .vmem, ⟨0, _⟩ => ⟨S4000x128, .f32⟩
  | .local _ .vmem, ⟨1, _⟩ => ⟨S4000x128, .f32⟩
  | .local _ .vmem, ⟨2, _⟩ => ⟨S128x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S1x32, .f32⟩
  | .local _ .vmem, ⟨8, _⟩ => ⟨S32x16, .f32⟩
  | .local _ .vmem, ⟨9, _⟩ => ⟨S4000x16, .f32⟩
  | .local _ .vmem, ⟨10, _⟩ => ⟨S4000x16, .f32⟩
  | .local _ .vmem, ⟨11, _⟩ => ⟨S4000x16, .f32⟩
  | .local _ .vmem, ⟨12, _⟩ => ⟨S4000x16, .f32⟩
  | .local _ .vmem, ⟨13, _⟩ => ⟨S1x16, .f32⟩
  | .local _ .vmem, ⟨14, _⟩ => ⟨S4000x16, .f32⟩
  | .local _ .vmem, ⟨15, _⟩ => ⟨S4000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S4000x32_S4000x32_0_0 : ∀ a, (![0, 0] : Fin 2 → Nat) a + S4000x32.size a ≤ S4000x32.size a
  h_S4000x32 : 0 < S4000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  shapeCasts_S4000x32_S4000x32 : S4000x32.ShapeCasts S4000x32
  inb_S32x16_S32x16_0_0 : ∀ a, (![0, 0] : Fin 2 → Nat) a + S32x16.size a ≤ S32x16.size a
  h_S32x16 : 0 < S32x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  shapeCasts_S4000x16_S4000x16 : S4000x16.ShapeCasts S4000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x128_S128x32_S4000x32_1_0_0_1_n_n_wf : DotDims.WF S4000x128 S128x32 S4000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S4000x32_S32x16_S4000x16_1_0_0_1_n_n_wf : DotDims.WF S4000x32 S32x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x16.size a ≤ S100000x16.size a
  hwx1_3 : ∀ i : grid1.Coords, EltTy.bits .f32 = 32 ∨ (Rect.block (s := S100000x16) S4000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S100000x16.size a
  hwx2_0 : ∀ i : grid2.Coords, EltTy.bits .f32 = 32 ∨ (Rect.block (s := S100000x16) S4000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x16.size a ≤ S100000x16.size a
  hwx2_2 : ∀ i : grid2.Coords, EltTy.bits .f32 = 32 ∨ (Rect.block (s := S100000x16) S4000x16.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S4000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S4000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x16, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x16, .f32⟩
  | .hbm, ⟨79, _⟩ => ⟨S3300000x1, .f32⟩
  | .hbm, ⟨80, _⟩ => ⟨S3300000x16, .f32⟩
  | .hbm, ⟨81, _⟩ => ⟨S3300000x16, .f32⟩
  | .hbm, ⟨82, _⟩ => ⟨S_, .f32⟩
  | .hbm, ⟨83, _⟩ => ⟨S100000x16, .f32⟩
  | .hbm, ⟨84, _⟩ => ⟨S3300000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.Graph.lean ====
/-
  The host-side graph arithmetic of the two-layer graph convolution, as functions of arrays.

  From the edge list (a [2, E] integer array) the program forms the source and destination node of each of the E + N
  edges (the N self-loops appended), the symmetric normalisation weight of each edge (the product of the inverse square
  roots of the two endpoint degrees, zero where a degree is not positive), and, for a feature matrix h, the aggregated
  matrix whose row v is the sum over the edges into v of the weight times row (source) of h.  The same operations, in
  the same order, occur in both programs; they are named here once so that each program's result can be written as a
  short composition and the two compared stage by stage without opening a gather or a scatter.
-/
import proofs.«176223_j56959856279864_1_alg».proof.Proof.Gen.KernelIdeal

noncomputable section

namespace Cert.KernelIdeal.Graph

open Cert.KernelIdeal Cert.KernelIdeal.Facts₀ Cert.KernelIdeal.Facts Idealize.ShloMosaic Idealize.SL.Sem

variable {F : FTy → Type} [FloatOps F]

/-- Row `k` (0: sources, 1: destinations) of the edge list as a vector, with the self-loops 0 … N-1 appended. -/
def endpoints0 (e : (⟨S2x3200000, .i32⟩ : BufTy).Contents (Elt F)) : (⟨S3300000, .i32⟩ : BufTy).Contents (Elt F) :=
  concatenate S3300000 0 [⟨S3200000, shapeCast _ (extractStridedSlice S1x3200000 ![0, 0] e slices_S2x3200000_S1x3200000_0_0) shapeCasts_S1x3200000_S3200000⟩,
    ⟨S100000, iotaInDim S100000 32 0⟩] concatenates_S3200000_S100000_S3300000_d0

def endpoints1 (e : (⟨S2x3200000, .i32⟩ : BufTy).Contents (Elt F)) : (⟨S3300000, .i32⟩ : BufTy).Contents (Elt F) :=
  concatenate S3300000 0 [⟨S3200000, shapeCast _ (extractStridedSlice S1x3200000 ![1, 0] e slices_S2x3200000_S1x3200000_1_0) shapeCasts_S1x3200000_S3200000⟩,
    ⟨S100000, iotaInDim S100000 32 0⟩] concatenates_S3200000_S100000_S3300000_d0

/-- A node index vector made ready for a gather: a negative index counted from the end, then a trailing unit axis. -/
def wrapped (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- The degree of every node: one unit scattered to the destination of every edge. -/
def degree (dst : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 dst)
    (broadcastInDim S3300000 ![] bcast_S_S3300000 (constant S_ .f32 0x3F800000#32))

/-- The inverse square root of the degree where the degree is positive, zero elsewhere. -/
def invSqrtDegree (dst : (⟨S3300000, .i32⟩ : BufTy).Contents (Elt F)) : (⟨S100000, .f32⟩ : BufTy).Contents (Elt F) :=
  select (cmpf (F := F) .ogt (degree dst) (broadcastInDim S100000 ![] bcast_S_S100000 (constant S_ .f32 0x00000000#32)))
    (Host.rsqrt (degree dst))
    (broadcastInDim S100000 ![] bcast_S_S100000 (id (constant S_ .f32 0x00000000#32)))

/-- The weight of every edge: the product of the two endpoints' inverse square root degrees. -/
def edgeWeight (src dst : (⟨S3300000, .i32⟩ : BufTy).Contents (Elt F)) : (⟨S3300000, .f32⟩ : BufTy).Contents (Elt F) :=
  mulf (Host.gather gather_S100000_S3300000x1_S3300000_n_0_n_n_0_1_1 (invSqrtDegree dst) (wrapped (F := F) src))
    (Host.gather gather_S100000_S3300000x1_S3300000_n_0_n_n_0_1_1 (invSqrtDegree dst) (wrapped (F := F) dst))

/-- Weighted aggregation of a 32-column feature matrix along the edges. -/
def aggregate32 (h : (⟨S100000x32, .f32⟩ : BufTy).Contents (Elt F)) (src dst : (⟨S3300000, .i32⟩ : BufTy).Contents (Elt F))
    (w : (⟨S3300000, .f32⟩ : BufTy).Contents (Elt F)) : (⟨S100000x32, .f32⟩ : BufTy).Contents (Elt F) :=
  Host.scatterAdd scatter_S100000x32_S3300000x1_S3300000x32_1_0_0_1
    (broadcastInDim S100000x32 ![] bcast_S_S100000x32 (constant S_ .f32 0x00000000#32))
    (broadcastInDim S3300000x1 ![0] bcast_S3300000_S3300000x1_0 dst)
    (mulf (Host.gather gather_S100000x32_S3300000x1_S3300000x32_1_0_n_n_0_1_132 h (wrapped (F := F) src))
      (broadcastInDim S3300000x32 ![0, 1] bcast_S3300000x1_S3300000x32_0_1 (broadcastInDim S3300000x1 ![0] bcast_S3300000_S3300000x1_0 w)))

/-- Weighted aggregation of a 16-column feature matrix along the edges. -/
def aggregate16 (h : (⟨S100000x16, .f32⟩ : BufTy).Contents (Elt F)) (src dst : (⟨S3300000, .i32⟩ : BufTy).Contents (Elt F))
    (w : (⟨S3300000, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 dst)
    (mulf (Host.gather gather_S100000x16_S3300000x1_S3300000x16_1_0_n_n_0_1_116 h (wrapped (F := F) src))
      (broadcastInDim S3300000x16 ![0, 1] bcast_S3300000x1_S3300000x16_0_1 (broadcastInDim S3300000x1 ![0] bcast_S3300000_S3300000x1_0 w)))

end Cert.KernelIdeal.Graph

end
-- ==== Proof.Chain.lean ====
/-
  The buffers the regions read and write, followed through the program's chain of valuations.

  Between the launch and the return the program alternates stretches of host operations with the three regions.  A
  host stretch leaves in each buffer it writes a function of the buffers it reads and leaves every other buffer alone; a
  region leaves in its output array what its grid points wrote back and leaves every buffer that is not one of its arrays
  alone.  Read through the whole chain: the endpoints of the edges and their weights are computed once, before the first
  region, from the edge list; each later stretch aggregates the previous region's result along the edges and reshapes a
  bias vector into a row; the arguments are never written.
-/
import proofs.«176223_j56959856279864_1_alg».proof.Proof.Gen.KernelIdeal.Frame
import proofs.«176223_j56959856279864_1_alg».proof.Proof.Graph
import Idealize.ShloMosaic.Lib.StableHlo.Run

set_option maxRecDepth 16384

noncomputable section

namespace Cert.KernelIdeal.Chain

open Cert.KernelIdeal Cert.KernelIdeal.Gen Cert.KernelIdeal.Graph
open Idealize.ShloMosaic Idealize.ShloMosaic.TcCoe Idealize.SL.Sem Idealize.ShloMosaic.StableHlo

variable {F : FTy → Type} [FloatOps F]

/-! ## One stretch at a time, from any contents -/

section Stretches

variable (Wv : Valuation τ sig (Elt F))

/-- The stretches before the first region, run one after the other. -/
abbrev prelude : Valuation τ sig (Elt F) := after hostOps0_2 (after hostOps0_1 (after hostOps0 Wv))

theorem prelude_src : prelude Wv (Proc.devRef .tc main_v3) = endpoints0 (F := F) (Wv (Proc.devRef .tc main_arg5)) := by
  unfold prelude endpoints0; after_results_simp <;> rfl
theorem prelude_dst : prelude Wv (Proc.devRef .tc main_v6) = endpoints1 (F := F) (Wv (Proc.devRef .tc main_arg5)) := by
  unfold prelude endpoints1; after_results_simp <;> rfl
theorem prelude_weight : prelude Wv (Proc.devRef .tc main_v29)
    = edgeWeight (F := F) (endpoints0 (F := F) (Wv (Proc.devRef .tc main_arg5))) (endpoints1 (F := F) (Wv (Proc.devRef .tc main_arg5))) := by
  unfold prelude; after_results_simp <;> rfl
theorem prelude_arg0 : prelude Wv (Proc.devRef .tc main_arg0) = Wv (Proc.devRef .tc main_arg0) := by
  unfold prelude; after_results_simp <;> rfl
theorem prelude_arg1 : prelude Wv (Proc.devRef .tc main_arg1) = Wv (Proc.devRef .tc main_arg1) := by
  unfold prelude; after_results_simp <;> rfl
theorem prelude_arg2 : prelude Wv (Proc.devRef .tc main_arg2) = Wv (Proc.devRef .tc main_arg2) := by
  unfold prelude; after_results_simp <;> rfl
theorem prelude_arg3 : prelude Wv (Proc.devRef .tc main_arg3) = Wv (Proc.devRef .tc main_arg3) := by
  unfold prelude; after_results_simp <;> rfl
theorem prelude_arg4 : prelude Wv (Proc.devRef .tc main_arg4) = Wv (Proc.devRef .tc main_arg4) := by
  unfold prelude; after_results_simp <;> rfl

/-- The stretch between the first and the second region aggregates the first region's result. -/
theorem middle_agg : after hostOps1 Wv (Proc.devRef .tc main_v43)
    = aggregate32 (F := F) (Wv (Proc.devRef .tc main_v30)) (Wv (Proc.devRef .tc main_v3)) (Wv (Proc.devRef .tc main_v6)) (Wv (Proc.devRef .tc main_v29)) := by
  unfold aggregate32 wrapped; after_results_simp <;> rfl
theorem middle_bias : after hostOps1 Wv (Proc.devRef .tc main_v44)
    = shapeCast S1x32 (Wv (Proc.devRef .tc main_arg2)) Cert.KernelIdeal.Facts₀.shapeCasts_S32_S1x32 := by
  after_results_simp <;> rfl
theorem middle_src : after hostOps1 Wv (Proc.devRef .tc main_v3) = Wv (Proc.devRef .tc main_v3) := by after_results_simp <;> rfl
theorem middle_dst : after hostOps1 Wv (Proc.devRef .tc main_v6) = Wv (Proc.devRef .tc main_v6) := by after_results_simp <;> rfl
theorem middle_weight : after hostOps1 Wv (Proc.devRef .tc main_v29) = Wv (Proc.devRef .tc main_v29) := by after_results_simp <;> rfl
theorem middle_arg3 : after hostOps1 Wv (Proc.devRef .tc main_arg3) = Wv (Proc.devRef .tc main_arg3) := by after_results_simp <;> rfl
theorem middle_arg4 : after hostOps1 Wv (Proc.devRef .tc main_arg4) = Wv (Proc.devRef .tc main_arg4) := by after_results_simp <;> rfl

/-- The stretch between the second and the third region aggregates the second region's result. -/
theorem last_agg : after hostOps2 Wv (Proc.devRef .tc main_v58)
    = aggregate16 (F := F) (Wv (Proc.devRef .tc main_v45)) (Wv (Proc.devRef .tc main_v3)) (Wv (Proc.devRef .tc main_v6)) (Wv (Proc.devRef .tc main_v29)) := by
  unfold aggregate16 wrapped; after_results_simp <;> rfl
theorem last_bias : after hostOps2 Wv (Proc.devRef .tc main_v59)
    = shapeCast S1x16 (Wv (Proc.devRef .tc main_arg4)) Cert.KernelIdeal.Facts₀.shapeCasts_S16_S1x16 := by
  after_results_simp <;> rfl

end Stretches

end Cert.KernelIdeal.Chain

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.Tile.lean ====
/-
  What each kernel body computes on one tile, entry by entry, on the extended reals.

  The first body multiplies a [4000, 128] tile of the node features by the [128, 32] weight matrix; the second adds the
  bias row to a [4000, 32] tile of aggregated features, clamps at zero from below and multiplies by the [32, 16] weight
  matrix; the third adds the bias row to a [4000, 16] tile.  On the extended reals the changes of float format are the
  identity and a matrix product accumulated into zero is the plain sum of products, so every entry of a result tile is
  a closed expression in the entries of the operand tiles.
-/
import proofs.«176223_j56959856279864_1_alg».proof.Proof.Gen.KernelIdeal.Skeleton
import proofs.«176223_j56959856279864_1_alg».proof.Proof.LibInnerProducts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-- Entry (p, f) of the first body's tile: row p of the feature tile against column f of the weights. -/
theorem product_apply (x : Vec Ideal S4000x128 .f32) (w : Vec Ideal S128x32 .f32) (p : Fin 4000) (f : Fin 32) :
    k0_pay1 (F := Ideal) x w (ix2 p f) = ∑ d : Fin 128, x (ix2 p d) * w (ix2 d f) := by
  unfold k0_pay1
  exact InnerProducts.matmul_zero_apply dot_S4000x128_S128x32_S4000x32_1_0_0_1_n_n rfl none
    (truncf .bf16 x bitsLt_bf16_f32) (truncf .bf16 w bitsLt_bf16_f32) p f

/-- Entry (p, f) of the second body's tile: the biased, clamped row p against column f of the weights. -/
theorem clamped_product_apply (b : Vec Ideal S1x32 .f32) (a : Vec Ideal S4000x32 .f32) (w : Vec Ideal S32x16 .f32)
    (p : Fin 4000) (f : Fin 16) :
    k1_pay1 (F := Ideal) b a w (ix2 p f)
      = ∑ d : Fin 32, max (a (ix2 p d) + b (ix2 (0 : Fin 1) d)) (Ideal.ofBits .f32 0x00000000#32) * w (ix2 d f) := by
  unfold k1_pay1
  refine (InnerProducts.matmul_zero_apply dot_S4000x32_S32x16_S4000x16_1_0_0_1_n_n rfl none _ _ p f).trans ?_
  refine Finset.sum_congr rfl fun d _ => ?_
  rw [truncf_apply, truncf_apply, maximumf_apply, addf_apply, broadcast_apply, shapeCast_self, shapeCast_self,
    shapeCast_self, broadcastTo_1b_ab_apply]
  rfl

/-- Entry (p, f) of the third body's tile: the tile's entry plus the bias of column f. -/
theorem biased_apply (b : Vec Ideal S1x16 .f32) (a : Vec Ideal S4000x16 .f32) (p : Fin 4000) (f : Fin 16) :
    k2_pay1 (F := Ideal) b a (ix2 p f) = a (ix2 p f) + b (ix2 (0 : Fin 1) f) := by
  unfold k2_pay1
  rw [addf_apply, shapeCast_self, shapeCast_self, shapeCast_self, broadcastTo_1b_ab_apply]

end Cert.KernelIdeal.Tile

end
-- ==== Proof.ProductRegion.lean ====
/-
  The first region: the node features multiplied by the first weight matrix.

  The grid has 25 points; point t reads rows 4000 t … 4000 t + 3999 of the [100000, 128] feature matrix and the whole
  [128, 32] weight matrix, and writes back the same rows of the [100000, 32] result.  On the extended reals entry (r, f)
  of a written tile is the inner product of row r of the features with column f of the weights, which is one function of
  the two whole arrays; the 25 tiles cover the result, so the result array ends holding the matrix product.
-/
import proofs.«176223_j56959856279864_1_alg».proof.Proof.Gen.KernelIdeal.Frame
import proofs.«176223_j56959856279864_1_alg».proof.Proof.Tile
import Idealize.ShloMosaic.Lib.Pipeline.Value
import Idealize.ShloMosaic.Lib.ValueIdx

set_option maxRecDepth 16384

noncomputable section

namespace Cert.KernelIdeal.ProductRegion

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offset of a whole-tile access. -/
theorem origin : (![0, 0] : Fin 2 → Nat) = fun _ => 0 := funext fun a => by fin_cases a <;> rfl

/-- The matrix product of the features with the weights, entry by entry. -/
def product (x : Vec Ideal S100000x128 .f32) (w : Vec Ideal S128x32 .f32) : Vec Ideal S100000x32 .f32 :=
  fun j => ∑ d : Fin 128, x (ix2 (j 0) d) * w (ix2 d (j 1))

/-- Which tile of each array a grid point touches: the features and the result move down by one tile per point, the
    weights stay. -/
theorem tile_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of point `t`'s tile, computed from the tiles the point reads, is the matrix product at the entry's place
    in the result: the feature tile sits at the same rows as the result tile, the weights are read whole. -/
theorem tile_entry (t : Fin cfg0.N) (X : Vec Ideal S100000x128 .f32) (Wt : Vec Ideal S128x32 .f32) (p : Fin 4000) (f : Fin 32) :
    (∑ d : Fin 128, X (((cfg0.win 0).blk t).view.emb (ix2 p d)) * Wt (((cfg0.win 1).blk t).view.emb (ix2 d f)))
      = product X Wt (((cfg0.win 2).blk t).view.emb (ix2 p f)) := by
  obtain ⟨e0, e1, e2, e3, e4, e5⟩ := tile_positions t
  unfold product
  refine Finset.sum_congr rfl fun d _ => ?_
  have hX : ((cfg0.win 0).blk t).view.emb (ix2 p d) = ix2 ((((cfg0.win 2).blk t).view.emb (ix2 p f)) 0) d := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * d.val = d.val; omega
  have hW : ((cfg0.win 1).blk t).view.emb (ix2 d f) = ix2 d ((((cfg0.win 2).blk t).view.emb (ix2 p f)) 1) := by
    funext a; apply Fin.ext
    match a with
    | ⟨0, _⟩ => show win0_1.index t (0 : Fin 2) * 128 + 1 * d.val = d.val; omega
    | ⟨1, _⟩ => show win0_1.index t (1 : Fin 2) * 32 + 1 * f.val = win0_2.index t (1 : Fin 2) * 32 + 1 * f.val; omega
  rw [hX, hW] <;> rfl

/-- What point `t` writes back is tile `t` of the matrix product of the arrays the region finds. -/
theorem written_tile (c : Dev nD) (t : Fin cfg0.N) :
    (dat0 V c).flushed 2 t = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero origin]
  simp only [View.ld_unit_zero (S := S4000x128) origin, View.ld_unit_zero (S := S128x32) origin]
  refine funext fun (j : S4000x32.Idx) => ?_
  obtain ⟨p, f, rfl⟩ : ∃ (p : Fin 4000) (f : Fin 32), j = ix2 p f := ⟨j 0, j 1, eq_ix2 j⟩
  refine (Tile.product_apply (iblk0 V c 0 t) (iblk0 V c 1 t) p f).trans ?_
  exact tile_entry t (V c main_arg0) (V c main_arg1) p f

/-- An index of the result lies in point `t`'s tile iff each coordinate lies in the tile's range on its axis. -/
theorem in_tile (t : Fin cfg0.N) (i : S100000x32.Idx) :
    i ∈ ((cfg0.win 2).blk t).view.set ↔ ∀ a : Fin 2, win0_2.index t a * S4000x32.size a ≤ (i a).val ∧ (i a).val < win0_2.index t a * S4000x32.size a + S4000x32.size a := by
  show i ∈ ((View.whole main_v30).slice (win0_2.rect t)).set ↔ _
  rw [View.set_slice_whole, Rect.mem_set_unit]
  exact Iff.rfl

/-- The result array after the region: the 25 tiles cover it (row r is in tile r / 4000). -/
theorem value (c : Dev nD) : (dat0 V c).arrAt 2 cfg0.N = product (V c main_arg0) (V c main_arg1) :=
  (dat0 V c).arrAt_eq_of_cover 2 _ (fun t _ => written_tile V c t) fun i => by
    have hN : cfg0.N = 25 := N_0
    have hi0 : (i 0).val < 100000 := (i 0).isLt
    have hi1 : (i 1).val < 32 := (i 1).isLt
    have hlt : (i 0).val / 4000 < cfg0.N := by rw [hN]; omega
    obtain ⟨e0, e1, e2, e3, e4, e5⟩ := tile_positions ⟨(i 0).val / 4000, hlt⟩
    refine ⟨⟨(i 0).val / 4000, hlt⟩, flush0_2 _, ?_⟩
    rw [in_tile]
    intro a
    match a with
    | ⟨0, _⟩ =>
      show win0_2.index ⟨(i 0).val / 4000, hlt⟩ (0 : Fin 2) * 4000 ≤ (i 0).val ∧ (i 0).val < win0_2.index ⟨(i 0).val / 4000, hlt⟩ (0 : Fin 2) * 4000 + 4000
      rw [e4]; show (i 0).val / 4000 * 4000 ≤ (i 0).val ∧ (i 0).val < (i 0).val / 4000 * 4000 + 4000; omega
    | ⟨1, _⟩ =>
      show win0_2.index ⟨(i 0).val / 4000, hlt⟩ (1 : Fin 2) * 32 ≤ (i 1).val ∧ (i 1).val < win0_2.index ⟨(i 0).val / 4000, hlt⟩ (1 : Fin 2) * 32 + 32
      rw [e5]; omega

end Cert.KernelIdeal.ProductRegion

end
-- ==== Proof.ClampedProductRegion.lean ====
/-
  The second region: the bias row added to the aggregated [100000, 32] matrix, the sum clamped at zero from below, and
  the result multiplied by the second weight matrix.

  The grid has 25 points; point t reads rows 4000 t … 4000 t + 3999 of the matrix, the whole bias row and the whole
  [32, 16] weight matrix, and writes back the same rows of the [100000, 16] result.  On the extended reals entry (r, f)
  of a written tile is the inner product of the biased, clamped row r with column f of the weights — one function of the
  three whole arrays; the 25 tiles cover the result, so the result array ends holding that function.
-/
import proofs.«176223_j56959856279864_1_alg».proof.Proof.Gen.KernelIdeal.Frame
import proofs.«176223_j56959856279864_1_alg».proof.Proof.Tile
import Idealize.ShloMosaic.Lib.Pipeline.Value
import Idealize.ShloMosaic.Lib.ValueIdx

set_option maxRecDepth 16384

noncomputable section

namespace Cert.KernelIdeal.ClampedProductRegion

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offset of a whole-tile access. -/
theorem origin : (![0, 0] : Fin 2 → Nat) = fun _ => 0 := funext fun a => by fin_cases a <;> rfl

/-- Every row of the matrix with the bias row added and clamped at zero, multiplied by the weights, entry by entry. -/
def clampedProduct (a : Vec Ideal S100000x32 .f32) (b : Vec Ideal S1x32 .f32) (w : Vec Ideal S32x16 .f32) : Vec Ideal S100000x16 .f32 :=
  fun j => ∑ d : Fin 32, max (a (ix2 (j 0) d) + b (ix2 (0 : Fin 1) d)) (Ideal.ofBits .f32 0x00000000#32) * w (ix2 d (j 1))

/-- Which tile of each array a grid point touches: the matrix and the result move down by one tile per point, the
    bias row and the weights stay. -/
theorem tile_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of point `t`'s tile, computed from the tiles the point reads, is the whole-array function at the entry's
    place in the result: the matrix tile sits at the same rows as the result tile, the bias row and the weights are read
    whole. -/
theorem tile_entry (t : Fin cfg1.N) (A : Vec Ideal S100000x32 .f32) (B : Vec Ideal S1x32 .f32) (Wt : Vec Ideal S32x16 .f32)
    (p : Fin 4000) (f : Fin 16) :
    (∑ d : Fin 32, max (A (((cfg1.win 0).blk t).view.emb (ix2 p d)) + B (((cfg1.win 1).blk t).view.emb (ix2 (0 : Fin 1) d)))
        (Ideal.ofBits .f32 0x00000000#32) * Wt (((cfg1.win 2).blk t).view.emb (ix2 d f)))
      = clampedProduct A B Wt (((cfg1.win 3).blk t).view.emb (ix2 p f)) := by
  obtain ⟨e0, e1, e2, e3, e4, e5, e6, e7⟩ := tile_positions t
  unfold clampedProduct
  refine Finset.sum_congr rfl fun d _ => ?_
  have hA : ((cfg1.win 0).blk t).view.emb (ix2 p d) = ix2 ((((cfg1.win 3).blk t).view.emb (ix2 p f)) 0) d := by
    funext a; apply Fin.ext
    match a with
    | ⟨0, _⟩ => show win1_0.index t (0 : Fin 2) * 4000 + 1 * p.val = win1_3.index t (0 : Fin 2) * 4000 + 1 * p.val; omega
    | ⟨1, _⟩ => show win1_0.index t (1 : Fin 2) * 32 + 1 * d.val = d.val; omega
  have hB : ((cfg1.win 1).blk t).view.emb (ix2 (0 : Fin 1) d) = ix2 (0 : Fin 1) d := by
    funext a; apply Fin.ext
    match a with
    | ⟨0, _⟩ => show win1_1.index t (0 : Fin 2) * 1 + 1 * 0 = 0; omega
    | ⟨1, _⟩ => show win1_1.index t (1 : Fin 2) * 32 + 1 * d.val = d.val; omega
  have hW : ((cfg1.win 2).blk t).view.emb (ix2 d f) = ix2 d ((((cfg1.win 3).blk t).view.emb (ix2 p f)) 1) := by
    funext a; apply Fin.ext
    match a with
    | ⟨0, _⟩ => show win1_2.index t (0 : Fin 2) * 32 + 1 * d.val = d.val; omega
    | ⟨1, _⟩ => show win1_2.index t (1 : Fin 2) * 16 + 1 * f.val = win1_3.index t (1 : Fin 2) * 16 + 1 * f.val; omega
  rw [hA, hB, hW] <;> rfl

/-- What point `t` writes back is tile `t` of `clampedProduct` of the arrays the region finds. -/
theorem written_tile (c : Dev nD) (t : Fin cfg1.N) :
    (dat1 V c).flushed 3 t = ((cfg1.win 3).blk t).view.read (Elt Ideal) (clampedProduct (V c main_v43) (V c main_v44) (V c main_arg3)) := by
  show (cfg1.win 3).cut (grid1.coords t) ((dat1 V c).after 3 t) = _
  rw [after1_3]
  unfold out1_3
  rw [View.canon_unit_zero origin]
  simp only [View.ld_unit_zero (S := S4000x32) origin, View.ld_unit_zero (S := S1x32) origin, View.ld_unit_zero (S := S32x16) origin]
  refine funext fun (j : S4000x16.Idx) => ?_
  obtain ⟨p, f, rfl⟩ : ∃ (p : Fin 4000) (f : Fin 16), j = ix2 p f := ⟨j 0, j 1, eq_ix2 j⟩
  refine (Tile.clamped_product_apply (iblk1 V c 1 t) (iblk1 V c 0 t) (iblk1 V c 2 t) p f).trans ?_
  exact tile_entry t (V c main_v43) (V c main_v44) (V c main_arg3) p f

/-- An index of the result lies in point `t`'s tile iff each coordinate lies in the tile's range on its axis. -/
theorem in_tile (t : Fin cfg1.N) (i : S100000x16.Idx) :
    i ∈ ((cfg1.win 3).blk t).view.set ↔ ∀ a : Fin 2, win1_3.index t a * S4000x16.size a ≤ (i a).val ∧ (i a).val < win1_3.index t a * S4000x16.size a + S4000x16.size a := by
  show i ∈ ((View.whole main_v45).slice (win1_3.rect t)).set ↔ _
  rw [View.set_slice_whole, Rect.mem_set_unit]
  exact Iff.rfl

/-- The result array after the region: the 25 tiles cover it (row r is in tile r / 4000). -/
theorem value (c : Dev nD) : (dat1 V c).arrAt 3 cfg1.N = clampedProduct (V c main_v43) (V c main_v44) (V c main_arg3) :=
  (dat1 V c).arrAt_eq_of_cover 3 _ (fun t _ => written_tile V c t) fun i => by
    have hN : cfg1.N = 25 := N_1
    have hi0 : (i 0).val < 100000 := (i 0).isLt
    have hi1 : (i 1).val < 16 := (i 1).isLt
    have hlt : (i 0).val / 4000 < cfg1.N := by rw [hN]; omega
    obtain ⟨e0, e1, e2, e3, e4, e5, e6, e7⟩ := tile_positions ⟨(i 0).val / 4000, hlt⟩
    refine ⟨⟨(i 0).val / 4000, hlt⟩, flush1_3 _, ?_⟩
    rw [in_tile]
    intro a
    match a with
    | ⟨0, _⟩ =>
      show win1_3.index ⟨(i 0).val / 4000, hlt⟩ (0 : Fin 2) * 4000 ≤ (i 0).val ∧ (i 0).val < win1_3.index ⟨(i 0).val / 4000, hlt⟩ (0 : Fin 2) * 4000 + 4000
      rw [e6]; show (i 0).val / 4000 * 4000 ≤ (i 0).val ∧ (i 0).val < (i 0).val / 4000 * 4000 + 4000; omega
    | ⟨1, _⟩ =>
      show win1_3.index ⟨(i 0).val / 4000, hlt⟩ (1 : Fin 2) * 16 ≤ (i 1).val ∧ (i 1).val < win1_3.index ⟨(i 0).val / 4000, hlt⟩ (1 : Fin 2) * 16 + 16
      rw [e7]; omega

end Cert.KernelIdeal.ClampedProductRegion

end
-- ==== Proof.BiasRegion.lean ====
/-
  The third region: the bias row added to every row of the aggregated [100000, 16] matrix.

  The grid has 25 points; point t reads rows 4000 t … 4000 t + 3999 of the matrix and the whole bias row, and writes
  back the same rows of the result.  Each written tile is the corresponding rows of one function of the two whole
  arrays — entry (r, f) is the matrix's entry plus the bias of column f — and the 25 tiles cover the result, so the
  result array ends holding that function.
-/
import proofs.«176223_j56959856279864_1_alg».proof.Proof.Gen.KernelIdeal.Frame
import proofs.«176223_j56959856279864_1_alg».proof.Proof.Tile
import Idealize.ShloMosaic.Lib.Pipeline.Value
import Idealize.ShloMosaic.Lib.ValueIdx

set_option maxRecDepth 16384

noncomputable section

namespace Cert.KernelIdeal.BiasRegion

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offset of a whole-tile access. -/
theorem origin : (![0, 0] : Fin 2 → Nat) = fun _ => 0 := funext fun a => by fin_cases a <;> rfl

/-- Every row of the matrix with the bias row added. -/
def rowBiased (a : Vec Ideal S100000x16 .f32) (b : Vec Ideal S1x16 .f32) : Vec Ideal S100000x16 .f32 :=
  fun j => a j + b (ix2 (0 : Fin 1) (j 1))

/-- Which tile of each array a grid point touches: the matrix and the result move down by one tile per point, the
    bias row stays. -/
theorem tile_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of point `t`'s tile, computed from the tiles the point reads, is the whole-array function at the entry's
    place in the result: the matrix tile sits at the same rows as the result tile, the bias row is read whole. -/
theorem tile_entry (t : Fin cfg2.N) (A : Vec Ideal S100000x16 .f32) (B : Vec Ideal S1x16 .f32) (p : Fin 4000) (f : Fin 16) :
    A (((cfg2.win 0).blk t).view.emb (ix2 p f)) + B (((cfg2.win 1).blk t).view.emb (ix2 (0 : Fin 1) f))
      = rowBiased A B (((cfg2.win 2).blk t).view.emb (ix2 p f)) := by
  obtain ⟨e0, e1, e2, e3, e4, e5⟩ := tile_positions t
  have hA : ((cfg2.win 0).blk t).view.emb (ix2 p f) = ((cfg2.win 2).blk t).view.emb (ix2 p f) := by
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 16 + 1 * f.val = win2_2.index t (1 : Fin 2) * 16 + 1 * f.val; omega
  have hB : ((cfg2.win 1).blk t).view.emb (ix2 (0 : Fin 1) f) = ix2 (0 : Fin 1) ((((cfg2.win 2).blk t).view.emb (ix2 p f)) 1) := by
    funext a; apply Fin.ext
    match a with
    | ⟨0, _⟩ => show win2_1.index t (0 : Fin 2) * 1 + 1 * 0 = 0; omega
    | ⟨1, _⟩ => show win2_1.index t (1 : Fin 2) * 16 + 1 * f.val = win2_2.index t (1 : Fin 2) * 16 + 1 * f.val; omega
  rw [hA, hB] <;> rfl

/-- What point `t` writes back is tile `t` of `rowBiased` of the arrays the region finds. -/
theorem written_tile (c : Dev nD) (t : Fin cfg2.N) :
    (dat2 V c).flushed 2 t = ((cfg2.win 2).blk t).view.read (Elt Ideal) (rowBiased (V c main_v58) (V c main_v59)) := by
  show (cfg2.win 2).cut (grid2.coords t) ((dat2 V c).after 2 t) = _
  rw [after2_2]
  unfold out2_2
  rw [View.canon_unit_zero origin]
  simp only [View.ld_unit_zero (S := S4000x16) origin, View.ld_unit_zero (S := S1x16) origin]
  refine funext fun (j : S4000x16.Idx) => ?_
  obtain ⟨p, f, rfl⟩ : ∃ (p : Fin 4000) (f : Fin 16), j = ix2 p f := ⟨j 0, j 1, eq_ix2 j⟩
  refine (Tile.biased_apply (iblk2 V c 1 t) (iblk2 V c 0 t) p f).trans ?_
  exact tile_entry t (V c main_v58) (V c main_v59) p f

/-- An index of the result lies in point `t`'s tile iff each coordinate lies in the tile's range on its axis. -/
theorem in_tile (t : Fin cfg2.N) (i : S100000x16.Idx) :
    i ∈ ((cfg2.win 2).blk t).view.set ↔ ∀ a : Fin 2, win2_2.index t a * S4000x16.size a ≤ (i a).val ∧ (i a).val < win2_2.index t a * S4000x16.size a + S4000x16.size a := by
  show i ∈ ((View.whole main_v60).slice (win2_2.rect t)).set ↔ _
  rw [View.set_slice_whole, Rect.mem_set_unit]
  exact Iff.rfl

/-- The result array after the region: the 25 tiles cover it (row r is in tile r / 4000). -/
theorem value (c : Dev nD) : (dat2 V c).arrAt 2 cfg2.N = rowBiased (V c main_v58) (V c main_v59) :=
  (dat2 V c).arrAt_eq_of_cover 2 _ (fun t _ => written_tile V c t) fun i => by
    have hN : cfg2.N = 25 := N_2
    have hi0 : (i 0).val < 100000 := (i 0).isLt
    have hi1 : (i 1).val < 16 := (i 1).isLt
    have hlt : (i 0).val / 4000 < cfg2.N := by rw [hN]; omega
    obtain ⟨e0, e1, e2, e3, e4, e5⟩ := tile_positions ⟨(i 0).val / 4000, hlt⟩
    refine ⟨⟨(i 0).val / 4000, hlt⟩, flush2_2 _, ?_⟩
    rw [in_tile]
    intro a
    match a with
    | ⟨0, _⟩ =>
      show win2_2.index ⟨(i 0).val / 4000, hlt⟩ (0 : Fin 2) * 4000 ≤ (i 0).val ∧ (i 0).val < win2_2.index ⟨(i 0).val / 4000, hlt⟩ (0 : Fin 2) * 4000 + 4000
      rw [e4]; show (i 0).val / 4000 * 4000 ≤ (i 0).val ∧ (i 0).val < (i 0).val / 4000 * 4000 + 4000; omega
    | ⟨1, _⟩ =>
      show win2_2.index ⟨(i 0).val / 4000, hlt⟩ (1 : Fin 2) * 16 ≤ (i 1).val ∧ (i 1).val < win2_2.index ⟨(i 0).val / 4000, hlt⟩ (1 : Fin 2) * 16 + 16
      rw [e5]; omega

end Cert.KernelIdeal.BiasRegion

end
-- ==== Proof.KernelValue.lean ====
/-
  The idealized kernel's result as one composition of whole-array functions of the six arguments.

  Following the chain of valuations from the launch to the return: the edge endpoints and weights are made from the edge
  list; the first region leaves the product of the features with the first weight matrix; that product is aggregated
  along the edges; the second region adds the first bias, clamps at zero and multiplies by the second weight matrix;
  that product is aggregated along the edges; the third region adds the second bias.  Every buffer read by a later stage
  is followed back to the stage that wrote it, through the stretches and regions that leave it alone.
-/
import proofs.«176223_j56959856279864_1_alg».proof.Proof.KernelRun
import proofs.«176223_j56959856279864_1_alg».proof.Proof.Chain
import proofs.«176223_j56959856279864_1_alg».proof.Proof.ProductRegion
import proofs.«176223_j56959856279864_1_alg».proof.Proof.ClampedProductRegion
import proofs.«176223_j56959856279864_1_alg».proof.Proof.BiasRegion

set_option maxRecDepth 16384

noncomputable section

namespace Cert.KernelIdeal.Whole

open Cert.KernelIdeal Cert.KernelIdeal.Gen Cert.KernelIdeal.Graph
open Idealize.ShloMosaic Idealize.ShloMosaic.TcCoe Idealize.SL.Sem

/-- The composition: from the features `x`, the two weight matrices and bias vectors, and the edge list `e`. -/
def composite (x : Vec Ideal S100000x128 .f32) (w1 : Vec Ideal S128x32 .f32) (b1 : Vec Ideal S32 .f32)
    (w2 : Vec Ideal S32x16 .f32) (b2 : Vec Ideal S16 .f32) (e : (⟨S2x3200000, .i32⟩ : BufTy).Contents (Elt Ideal)) :
    Vec Ideal S100000x16 .f32 :=
  BiasRegion.rowBiased
    (aggregate16 (F := Ideal)
      (ClampedProductRegion.clampedProduct
        (aggregate32 (F := Ideal) (ProductRegion.product x w1) (endpoints0 (F := Ideal) e) (endpoints1 (F := Ideal) e)
          (edgeWeight (F := Ideal) (endpoints0 (F := Ideal) e) (endpoints1 (F := Ideal) e)))
        (shapeCast S1x32 b1 Cert.KernelIdeal.Facts₀.shapeCasts_S32_S1x32) w2)
      (endpoints0 (F := Ideal) e) (endpoints1 (F := Ideal) e)
      (edgeWeight (F := Ideal) (endpoints0 (F := Ideal) e) (endpoints1 (F := Ideal) e)))
    (shapeCast S1x16 b2 Cert.KernelIdeal.Facts₀.shapeCasts_S16_S1x16)

variable (m : (ℓ : Loc nD τ sig) → Buf (Elt Ideal) ℓ) (ρ : Dev nD → PrngReg)

/-! ## At the first region's entry -/

theorem src3 (c : Dev nD) : W3 m ρ c (Proc.devRef .tc main_v3) = endpoints0 (F := Ideal) (m ((c : Thread nD τ).loc main_arg5)) :=
  Chain.prelude_src (W0 m ρ c)
theorem dst3 (c : Dev nD) : W3 m ρ c (Proc.devRef .tc main_v6) = endpoints1 (F := Ideal) (m ((c : Thread nD τ).loc main_arg5)) :=
  Chain.prelude_dst (W0 m ρ c)
theorem weight3 (c : Dev nD) : W3 m ρ c (Proc.devRef .tc main_v29)
    = edgeWeight (F := Ideal) (endpoints0 (F := Ideal) (m ((c : Thread nD τ).loc main_arg5))) (endpoints1 (F := Ideal) (m ((c : Thread nD τ).loc main_arg5))) :=
  Chain.prelude_weight (W0 m ρ c)
theorem arg0_3 (c : Dev nD) : W3 m ρ c (Proc.devRef .tc main_arg0) = m ((c : Thread nD τ).loc main_arg0) := Chain.prelude_arg0 (W0 m ρ c)
theorem arg1_3 (c : Dev nD) : W3 m ρ c (Proc.devRef .tc main_arg1) = m ((c : Thread nD τ).loc main_arg1) := Chain.prelude_arg1 (W0 m ρ c)
theorem arg2_3 (c : Dev nD) : W3 m ρ c (Proc.devRef .tc main_arg2) = m ((c : Thread nD τ).loc main_arg2) := Chain.prelude_arg2 (W0 m ρ c)
theorem arg3_3 (c : Dev nD) : W3 m ρ c (Proc.devRef .tc main_arg3) = m ((c : Thread nD τ).loc main_arg3) := Chain.prelude_arg3 (W0 m ρ c)
theorem arg4_3 (c : Dev nD) : W3 m ρ c (Proc.devRef .tc main_arg4) = m ((c : Thread nD τ).loc main_arg4) := Chain.prelude_arg4 (W0 m ρ c)

/-! ## After the first region -/

theorem product4 (c : Dev nD) : W4 m ρ c (Proc.devRef .tc main_v30)
    = ProductRegion.product (m ((c : Thread nD τ).loc main_arg0)) (m ((c : Thread nD τ).loc main_arg1)) :=
  (W4_arr m ρ c 2).trans ((ProductRegion.value (V3 m ρ) c).trans (by
    rw [show V3 m ρ c main_arg0 = m ((c : Thread nD τ).loc main_arg0) from arg0_3 m ρ c,
      show V3 m ρ c main_arg1 = m ((c : Thread nD τ).loc main_arg1) from arg1_3 m ρ c]))
theorem src4 (c : Dev nD) : W4 m ρ c (Proc.devRef .tc main_v3) = endpoints0 (F := Ideal) (m ((c : Thread nD τ).loc main_arg5)) :=
  (W4_of_ne m ρ c main_v3 (by decide)).trans (src3 m ρ c)
theorem dst4 (c : Dev nD) : W4 m ρ c (Proc.devRef .tc main_v6) = endpoints1 (F := Ideal) (m ((c : Thread nD τ).loc main_arg5)) :=
  (W4_of_ne m ρ c main_v6 (by decide)).trans (dst3 m ρ c)
theorem weight4 (c : Dev nD) : W4 m ρ c (Proc.devRef .tc main_v29)
    = edgeWeight (F := Ideal) (endpoints0 (F := Ideal) (m ((c : Thread nD τ).loc main_arg5))) (endpoints1 (F := Ideal) (m ((c : Thread nD τ).loc main_arg5))) :=
  (W4_of_ne m ρ c main_v29 (by decide)).trans (weight3 m ρ c)
theorem arg2_4 (c : Dev nD) : W4 m ρ c (Proc.devRef .tc main_arg2) = m ((c : Thread nD τ).loc main_arg2) :=
  (W4_of_ne m ρ c main_arg2 (by decide)).trans (arg2_3 m ρ c)
theorem arg3_4 (c : Dev nD) : W4 m ρ c (Proc.devRef .tc main_arg3) = m ((c : Thread nD τ).loc main_arg3) :=
  (W4_of_ne m ρ c main_arg3 (by decide)).trans (arg3_3 m ρ c)
theorem arg4_4 (c : Dev nD) : W4 m ρ c (Proc.devRef .tc main_arg4) = m ((c : Thread nD τ).loc main_arg4) :=
  (W4_of_ne m ρ c main_arg4 (by decide)).trans (arg4_3 m ρ c)

/-! ## At the second region's entry -/

/-- The first layer's aggregated features. -/
abbrev layer1 (c : Dev nD) : Vec Ideal S100000x32 .f32 :=
  aggregate32 (F := Ideal) (ProductRegion.product (m ((c : Thread nD τ).loc main_arg0)) (m ((c : Thread nD τ).loc main_arg1)))
    (endpoints0 (F := Ideal) (m ((c : Thread nD τ).loc main_arg5))) (endpoints1 (F := Ideal) (m ((c : Thread nD τ).loc main_arg5)))
    (edgeWeight (F := Ideal) (endpoints0 (F := Ideal) (m ((c : Thread nD τ).loc main_arg5))) (endpoints1 (F := Ideal) (m ((c : Thread nD τ).loc main_arg5))))

theorem agg5 (c : Dev nD) : W5 m ρ c (Proc.devRef .tc main_v43) = layer1 m c :=
  (Chain.middle_agg (W4 m ρ c)).trans (by rw [product4 m ρ c, src4 m ρ c, dst4 m ρ c, weight4 m ρ c])
theorem bias5 (c : Dev nD) : W5 m ρ c (Proc.devRef .tc main_v44)
    = shapeCast S1x32 (m ((c : Thread nD τ).loc main_arg2)) Cert.KernelIdeal.Facts₀.shapeCasts_S32_S1x32 :=
  (Chain.middle_bias (W4 m ρ c)).trans (by rw [arg2_4 m ρ c])
theorem src5 (c : Dev nD) : W5 m ρ c (Proc.devRef .tc main_v3) = endpoints0 (F := Ideal) (m ((c : Thread nD τ).loc main_arg5)) :=
  (Chain.middle_src (W4 m ρ c)).trans (src4 m ρ c)
theorem dst5 (c : Dev nD) : W5 m ρ c (Proc.devRef .tc main_v6) = endpoints1 (F := Ideal) (m ((c : Thread nD τ).loc main_arg5)) :=
  (Chain.middle_dst (W4 m ρ c)).trans (dst4 m ρ c)
theorem weight5 (c : Dev nD) : W5 m ρ c (Proc.devRef .tc main_v29)
    = edgeWeight (F := Ideal) (endpoints0 (F := Ideal) (m ((c : Thread nD τ).loc main_arg5))) (endpoints1 (F := Ideal) (m ((c : Thread nD τ).loc main_arg5))) :=
  (Chain.middle_weight (W4 m ρ c)).trans (weight4 m ρ c)
theorem arg3_5 (c : Dev nD) : W5 m ρ c (Proc.devRef .tc main_arg3) = m ((c : Thread nD τ).loc main_arg3) :=
  (Chain.middle_arg3 (W4 m ρ c)).trans (arg3_4 m ρ c)
theorem arg4_5 (c : Dev nD) : W5 m ρ c (Proc.devRef .tc main_arg4) = m ((c : Thread nD τ).loc main_arg4) :=
  (Chain.middle_arg4 (W4 m ρ c)).trans (arg4_4 m ρ c)

/-! ## After the second region -/

/-- The second layer's transformed features. -/
abbrev hidden (c : Dev nD) : Vec Ideal S100000x16 .f32 :=
  ClampedProductRegion.clampedProduct (layer1 m c)
    (shapeCast S1x32 (m ((c : Thread nD τ).loc main_arg2)) Cert.KernelIdeal.Facts₀.shapeCasts_S32_S1x32) (m ((c : Thread nD τ).loc main_arg3))

theorem hidden6 (c : Dev nD) : W6 m ρ c (Proc.devRef .tc main_v45) = hidden m c :=
  (W6_arr m ρ c 3).trans ((ClampedProductRegion.value (V5 m ρ) c).trans (by
    rw [show V5 m ρ c main_v43 = layer1 m c from agg5 m ρ c,
      show V5 m ρ c main_v44 = shapeCast S1x32 (m ((c : Thread nD τ).loc main_arg2)) Cert.KernelIdeal.Facts₀.shapeCasts_S32_S1x32 from bias5 m ρ c,
      show V5 m ρ c main_arg3 = m ((c : Thread nD τ).loc main_arg3) from arg3_5 m ρ c]))
theorem src6 (c : Dev nD) : W6 m ρ c (Proc.devRef .tc main_v3) = endpoints0 (F := Ideal) (m ((c : Thread nD τ).loc main_arg5)) :=
  (W6_of_ne m ρ c main_v3 (by decide)).trans (src5 m ρ c)
theorem dst6 (c : Dev nD) : W6 m ρ c (Proc.devRef .tc main_v6) = endpoints1 (F := Ideal) (m ((c : Thread nD τ).loc main_arg5)) :=
  (W6_of_ne m ρ c main_v6 (by decide)).trans (dst5 m ρ c)
theorem weight6 (c : Dev nD) : W6 m ρ c (Proc.devRef .tc main_v29)
    = edgeWeight (F := Ideal) (endpoints0 (F := Ideal) (m ((c : Thread nD τ).loc main_arg5))) (endpoints1 (F := Ideal) (m ((c : Thread nD τ).loc main_arg5))) :=
  (W6_of_ne m ρ c main_v29 (by decide)).trans (weight5 m ρ c)
theorem arg4_6 (c : Dev nD) : W6 m ρ c (Proc.devRef .tc main_arg4) = m ((c : Thread nD τ).loc main_arg4) :=
  (W6_of_ne m ρ c main_arg4 (by decide)).trans (arg4_5 m ρ c)

/-! ## At the third region's entry, and the result -/

theorem agg7 (c : Dev nD) : W7 m ρ c (Proc.devRef .tc main_v58)
    = aggregate16 (F := Ideal) (hidden m c) (endpoints0 (F := Ideal) (m ((c : Thread nD τ).loc main_arg5))) (endpoints1 (F := Ideal) (m ((c : Thread nD τ).loc main_arg5)))
      (edgeWeight (F := Ideal) (endpoints0 (F := Ideal) (m ((c : Thread nD τ).loc main_arg5))) (endpoints1 (F := Ideal) (m ((c : Thread nD τ).loc main_arg5)))) :=
  (Chain.last_agg (W6 m ρ c)).trans (by rw [hidden6 m ρ c, src6 m ρ c, dst6 m ρ c, weight6 m ρ c])
theorem bias7 (c : Dev nD) : W7 m ρ c (Proc.devRef .tc main_v59)
    = shapeCast S1x16 (m ((c : Thread nD τ).loc main_arg4)) Cert.KernelIdeal.Facts₀.shapeCasts_S16_S1x16 :=
  (Chain.last_bias (W6 m ρ c)).trans (by rw [arg4_6 m ρ c])

/-- The result buffer at the end of the chain is the composition of the arguments. -/
theorem result8 (c : Dev nD) : W8 m ρ c (Proc.devRef .tc main_v60)
    = composite (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W8_arr m ρ c 2).trans ((BiasRegion.value (V7 m ρ) c).trans (by
    rw [show V7 m ρ c main_v58 = _ from agg7 m ρ c, show V7 m ρ c main_v59 = _ from bias7 m ρ c]; rfl))

/-- The run of the idealized kernel with its result computed. -/
theorem run : θ_run defs (onTc (τ := τ) (main (F := Ideal))) ⟨m, fun _ => 0, ρ⟩ (fun r => ∀ c : Dev nD,
      r.2.mem ((c.tc : Thread nD τ).loc main_v60)
        = composite (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result8 m ρ c), (h c).2⟩) (run_result (F := Ideal) m ρ)

end Cert.KernelIdeal.Whole

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.Bridge.lean ====
/-
  The reference's result is the kernel's composition.

  The reference computes the same two-layer graph convolution with the host's own operations: each matrix product is a
  `dot_general`, each bias is broadcast along the rows and added, the clamp is a maximum with zero.  Its graph
  arithmetic — endpoints, weights, gathers and scatters — is, operation for operation, the kernel program's host
  arithmetic.  What differs is three stages, and on the extended reals each pair is one function:
  a `dot_general` and the tiled product are the same sums of products; a bias vector reshaped into a row and read at
  (0, j) is the vector broadcast into a row and spread over the rows, read at (i, j); the clamp is the same maximum.
-/
import proofs.«176223_j56959856279864_1_alg».proof.Proof.KernelValue
import proofs.«176223_j56959856279864_1_alg».proof.Proof.RefRun
import proofs.«176223_j56959856279864_1_alg».proof.Proof.LibInDimRow
import proofs.«176223_j56959856279864_1_alg».proof.Proof.LibInnerProducts
import Idealize.ShloMosaic.Lib.ValueLayout
import Idealize.ShloMosaic.Lib.ValueIdx
import Idealize.ShloMosaic.Lib.Pipeline.Value

set_option maxRecDepth 16384

noncomputable section

namespace Cert.ReferenceIdeal.RefValue

open Cert.ReferenceIdeal Cert.ReferenceIdeal.Facts₀ Cert.ReferenceIdeal.Facts
open Idealize.ShloMosaic Idealize.ShloMosaic.TcCoe Idealize.ShloMosaic.ValueIdx Idealize.SL.Sem
open Cert.KernelIdeal.Graph
open scoped BigOperators

/-- A scalar spread over any shape reads the scalar everywhere. -/
theorem scalar_spread {α : Type} {t : Shape} (h : S_.BroadcastsInDim t (![] : Fin 0 → Fin t.rank)) (v : S_.Idx → α) (j : t.Idx) :
    broadcastInDim t ![] h v j = v (fun a => a.elim0) :=
  broadcastInDim_apply _ h v j _ (fun a => a.elim0)

/-- The first layer's transform: the host's product is the tiled product. -/
theorem product_eq (x : FVec Ideal S100000x128 .f32) (w : FVec Ideal S128x32 .f32) :
    Host.dotGeneral (F := Ideal) dot_S100000x128_S128x32_S100000x32_1_0_0_1_n_n none x w = Cert.KernelIdeal.ProductRegion.product x w := by
  funext j
  obtain ⟨p, f, rfl⟩ : ∃ (p : Fin 100000) (f : Fin 32), j = ix2 p f := ⟨j 0, j 1, eq_ix2 j⟩
  exact InnerProducts.dotGeneral_apply _ rfl none x w p f

/-- The second layer's transform: bias, clamp and the host's product are the tiled stage. -/
theorem clamped_product_eq (a : FVec Ideal S100000x32 .f32) (b1 : FVec Ideal S32 .f32) (w : FVec Ideal S32x16 .f32) :
    Host.dotGeneral (F := Ideal) dot_S100000x32_S32x16_S100000x16_1_0_0_1_n_n none
      (maximumf (F := Ideal) (addf (F := Ideal) a (broadcastInDim S100000x32 ![0, 1] bcast_S1x32_S100000x32_0_1 (broadcastInDim S1x32 ![1] bcast_S32_S1x32_1 b1)))
        (broadcastInDim S100000x32 ![] bcast_S_S100000x32 (constant (F := Ideal) S_ .f32 0x00000000#32))) w
      = Cert.KernelIdeal.ClampedProductRegion.clampedProduct a
          (shapeCast Cert.KernelIdeal.S1x32 b1 Cert.KernelIdeal.Facts₀.shapeCasts_S32_S1x32) w := by
  funext j
  obtain ⟨p, f, rfl⟩ : ∃ (p : Fin 100000) (f : Fin 16), j = ix2 p f := ⟨j 0, j 1, eq_ix2 j⟩
  refine (InnerProducts.dotGeneral_apply _ rfl none _ w p f).trans ?_
  unfold Cert.KernelIdeal.ClampedProductRegion.clampedProduct
  refine Finset.sum_congr rfl fun d _ => ?_
  rw [maximumf_apply, addf_apply, Cert.LibInDimRow.inDim_1b_ab_apply, Cert.LibInDimRow.inDim_b_1b_apply, scalar_spread,
    constant_apply, shapeCast_a_1a_apply] <;> rfl

/-- The last bias: broadcast along the rows and added, or reshaped into a row and added row by row. -/
theorem biased_eq (a : FVec Ideal S100000x16 .f32) (b2 : FVec Ideal S16 .f32) :
    addf (F := Ideal) a (broadcastInDim S100000x16 ![0, 1] bcast_S1x16_S100000x16_0_1 (broadcastInDim S1x16 ![1] bcast_S16_S1x16_1 b2))
      = Cert.KernelIdeal.BiasRegion.rowBiased a (shapeCast Cert.KernelIdeal.S1x16 b2 Cert.KernelIdeal.Facts₀.shapeCasts_S16_S1x16) := by
  funext j
  obtain ⟨p, f, rfl⟩ : ∃ (p : Fin 100000) (f : Fin 16), j = ix2 p f := ⟨j 0, j 1, eq_ix2 j⟩
  unfold Cert.KernelIdeal.BiasRegion.rowBiased
  rw [addf_apply, Cert.LibInDimRow.inDim_1b_ab_apply, Cert.LibInDimRow.inDim_b_1b_apply, shapeCast_a_1a_apply] <;> rfl

/-- The reference's result, written over the shared graph arithmetic. -/
def composite (x : FVec Ideal S100000x128 .f32) (w1 : FVec Ideal S128x32 .f32) (b1 : FVec Ideal S32 .f32)
    (w2 : FVec Ideal S32x16 .f32) (b2 : FVec Ideal S16 .f32) (e : (⟨S2x3200000, .i32⟩ : BufTy).Contents (Elt Ideal)) :
    FVec Ideal S100000x16 .f32 :=
  addf (F := Ideal)
    (aggregate16 (F := Ideal)
      (Host.dotGeneral (F := Ideal) dot_S100000x32_S32x16_S100000x16_1_0_0_1_n_n none
        (maximumf (F := Ideal)
          (addf (F := Ideal)
            (aggregate32 (F := Ideal) (Host.dotGeneral (F := Ideal) dot_S100000x128_S128x32_S100000x32_1_0_0_1_n_n none x w1)
              (endpoints0 (F := Ideal) e) (endpoints1 (F := Ideal) e)
              (edgeWeight (F := Ideal) (endpoints0 (F := Ideal) e) (endpoints1 (F := Ideal) e)))
            (broadcastInDim S100000x32 ![0, 1] bcast_S1x32_S100000x32_0_1 (broadcastInDim S1x32 ![1] bcast_S32_S1x32_1 b1)))
          (broadcastInDim S100000x32 ![] bcast_S_S100000x32 (constant (F := Ideal) S_ .f32 0x00000000#32)))
        w2)
      (endpoints0 (F := Ideal) e) (endpoints1 (F := Ideal) e)
      (edgeWeight (F := Ideal) (endpoints0 (F := Ideal) e) (endpoints1 (F := Ideal) e)))
    (broadcastInDim S100000x16 ![0, 1] bcast_S1x16_S100000x16_0_1 (broadcastInDim S1x16 ![1] bcast_S16_S1x16_1 b2))

/-- The reference run's result term is that composition: the same operations in the same order. -/
theorem res_eq (m : (ℓ : Loc nD τ sig) → Buf (Elt Ideal) ℓ) (c : Dev nD) :
    Cert.ReferenceIdeal.ValueP.res_main_v64 (F := Ideal) m c
      = composite (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v64 composite
  rfl

/-- The two compositions are one function of the arguments. -/
theorem composite_eq (x : FVec Ideal S100000x128 .f32) (w1 : FVec Ideal S128x32 .f32) (b1 : FVec Ideal S32 .f32)
    (w2 : FVec Ideal S32x16 .f32) (b2 : FVec Ideal S16 .f32) (e : (⟨S2x3200000, .i32⟩ : BufTy).Contents (Elt Ideal)) :
    composite x w1 b1 w2 b2 e = Cert.KernelIdeal.Whole.composite x w1 b1 w2 b2 e := by
  unfold composite Cert.KernelIdeal.Whole.composite
  rw [product_eq, clamped_product_eq, biased_eq]

end Cert.ReferenceIdeal.RefValue

end
-- ==== Proof.lean ====
/-
  A two-layer graph convolution, tiled, against its plain form: equal results on the extended reals.

  Both programs take node features x [100000, 128], weights W1 [128, 32] and W2 [32, 16], biases b1 [32] and b2 [16], and
  an edge list [2, 3200000].  With A the aggregation along the edges (self-loops appended, each edge weighted by the
  product of the inverse square roots of its endpoints' degrees), both compute

      A(max(A(x W1) + b1, 0) W2) + b2.

  The kernel program runs the three dense stages — x W1; bias, clamp and product with W2; the last bias — as grid-tiled
  regions of 25 row tiles each, and the aggregation between them as host operations; the reference runs everything as
  host operations.  The aggregation is the same sequence of host operations in both, so it is carried along unopened.
  Each dense stage is, entry by entry, the same expression on the extended reals: a matrix product accumulated into zero
  and the host's `dot_general` are the same sum of products, the changes of float format are the identity, and a bias
  vector reshaped into a row or broadcast along the rows adds the same number to entry (r, f).  No law is used that fails at
  an infinity, so the finiteness of the inputs is not needed for the values.
  The ideal pass rewrote nothing, so the idealized kernel is the kernel's own text read on the extended reals.
-/
import proofs.«176223_j56959856279864_1_alg».proof.Defs
import proofs.«176223_j56959856279864_1_alg».proof.Proof.Gen.Kernel
import proofs.«176223_j56959856279864_1_alg».proof.Proof.Gen.Kernel.Skeleton
import proofs.«176223_j56959856279864_1_alg».proof.Proof.Gen.Kernel.Launch
import proofs.«176223_j56959856279864_1_alg».proof.Proof.Gen.Kernel.Points
import proofs.«176223_j56959856279864_1_alg».proof.Proof.Gen.Kernel.Frame
import proofs.«176223_j56959856279864_1_alg».proof.Proof.Gen.KernelIdeal
import proofs.«176223_j56959856279864_1_alg».proof.Proof.Gen.KernelIdeal.Skeleton
import proofs.«176223_j56959856279864_1_alg».proof.Proof.Gen.KernelIdeal.Launch
import proofs.«176223_j56959856279864_1_alg».proof.Proof.Gen.KernelIdeal.Points
import proofs.«176223_j56959856279864_1_alg».proof.Proof.Gen.KernelIdeal.Frame
import proofs.«176223_j56959856279864_1_alg».proof.Proof.Gen.ReferenceIdeal
import proofs.«176223_j56959856279864_1_alg».proof.Proof.Gen.Pre_finite_inputs
import proofs.«176223_j56959856279864_1_alg».proof.Proof.RefRun
import proofs.«176223_j56959856279864_1_alg».proof.Proof.KernelValue
import proofs.«176223_j56959856279864_1_alg».proof.Proof.Bridge
import Idealize.ShloMosaic.Adequacy
import Idealize.ShloMosaic.Init

noncomputable section

namespace Cert.Proof

open Idealize.ShloMosaic Idealize.SL.Sem

/-- The kernel as printed terminates without a fault and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments the kernel's result array ends at the composition of the dense stages and
    the aggregations, and the reference's at the same composition written with the host's operations: one function. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.ReferenceIdeal.RefValue.res_eq, h0, h1, h2, h3, h4, h5]
  exact Cert.ReferenceIdeal.RefValue.composite_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
